-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S4x2048 : Shape := ⟨2, ![4, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) (main_arg4 : IVec S4x2048 1) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S4x2048 : Shape := ⟨2, ![4, 2048]⟩
abbrev S_ : Shape := ⟨0, ![]⟩
abbrev S4x2048x1 : Shape := ⟨3, ![4, 2048, 1]⟩
abbrev S1x2048x1024 : Shape := ⟨3, ![1, 2048, 1024]⟩
abbrev S1x256x1 : Shape := ⟨3, ![1, 256, 1]⟩
abbrev S1x256x1024 : Shape := ⟨3, ![1, 256, 1024]⟩
abbrev S2048x1024 : Shape := ⟨2, ![2048, 1024]⟩
abbrev S256x1024 : Shape := ⟨2, ![256, 1024]⟩
abbrev S256x2048 : Shape := ⟨2, ![256, 2048]⟩
abbrev S256x1 : Shape := ⟨2, ![256, 1]⟩
abbrev S256 : Shape := ⟨1, ![256]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048, .i1⟩
  | .hbm, ⟨5, _⟩ => ⟨S_, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048x1, .f32⟩
  | .hbm, ⟨11, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x1, .f32⟩
  | .local _ .vmem, ⟨6, _⟩ => ⟨S1x256x1, .f32⟩
  | .local _ .vmem, ⟨7, _⟩ => ⟨S1x256x1024, .f32⟩
  | .local _ .vmem, ⟨8, _⟩ => ⟨S1x256x1024, .f32⟩
  | .local _ .vmem, ⟨9, _⟩ => ⟨S2048x1024, .f32⟩
  | .local _ .vmem, ⟨10, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : Index := Scalar.indexCast v3
  let c0_1 : Index := 0#32
  ![0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  h_S1x256x1024 : 0 < S1x256x1024.numel
  shapeCasts_S1x256x1024_S256x1024 : S1x256x1024.ShapeCasts S256x1024
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x2048 : S256x1.Broadcasts S256x2048
  reduces_S256x2048_S256 : S256x2048.Reduces [1] S256
  shapeCasts_S256_S256x1 : S256.ShapeCasts S256x1
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S2048x1024_S1024x1024_S2048x1024_1_0_0_1_n_n_wf : DotDims.WF S2048x1024 S1024x1024 S2048x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_off1_inb : ∀ i : grid0.Coords, ∀ a, (k0_off1 i) a + S1x256x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S4x2048x1.size a
  hwx0_4 : ∀ i : grid0.Coords, EltTy.bits .f32 = 32 ∨ (Rect.block (s := S4x2048x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S4x2048x1024.size a
  hwx0_5 : ∀ i : grid0.Coords, EltTy.bits .f32 = 32 ∨ (Rect.block (s := S4x2048x1024) S1x256x1024.size (cc0_transform_5 i) (hinb0_5 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048 : Shape := ⟨2, ![4, 2048]⟩
abbrev S4x2048x2048 : Shape := ⟨3, ![4, 2048, 2048]⟩
abbrev S_ : Shape := ⟨0, ![]⟩
abbrev S4x2048x1 : Shape := ⟨3, ![4, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048, .i1⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S4x2048, .i1⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S4x2048x1024, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Pieces.lean ====
/-
  What the kernel body leaves behind, case by case, as values.

  At the first query tile of a batch the body stores the key projection and the value projection of the whole
  batch block into its two scratch buffers and then computes the tile's output from what it just stored; at the
  other tiles it stores nothing into the scratch and computes the output from what the scratch held. In both
  cases the output block is one function of the query tile's rows of the batch block (read through the
  rectangle at row offset 256 · tile), the query weights, the two scratch contents and the mask column.
-/
import proofs.«132776_j59605556134004_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query tile's rows of the batch block: the block read through the rectangle of 256 rows at the tile's row offset. -/
abbrev qrows (i : grid0.Coords) (x0 : Vec F S1x2048x1024 .f32) : Vec F S1x256x1024 .f32 :=
  View.ld x0 (Rect.unit (s := S1x2048x1024) (k0_off1 i) S1x256x1024.size (k0_off1_inb i))

/-- First tile of a batch: the key scratch ends at the key projection of the batch block. -/
theorem sout_A_0 (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x256x1 .f32) (harg6 : arg6.IsWhole) (arg7 : Memref sig .tc .vmem S1x256x1024 .f32) (harg7 : arg7.IsWhole) (arg8 : Memref sig .tc .vmem S2048x1024 .f32) (harg8 : arg8.IsWhole) (arg9 : Memref sig .tc .vmem S2048x1024 .bf16) (harg9 : arg9.IsWhole) (hc0 : cond0_0 i)
    (x0 : Vec F S1x2048x1024 .f32) (x1 : Vec F S1024x1024 .f32) (x2 : Vec F S1024x1024 .f32) (x3 : Vec F S1024x1024 .f32) (x4 : Vec F S1x256x1 .f32) :
    sout0_A_0 c i arg2 harg2 arg3 harg3 arg4 harg4 arg5 harg5 arg6 harg6 arg7 harg7 arg8 harg8 arg9 harg9 hc0 x0 x1 x2 x3 x4 = k0_pay2 x0 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg2.read_unread, harg4.read_unread, View.ld_unit_zero (S := S1x2048x1024) hz3, View.ld_unit_zero (S := S1024x1024) hz2]

/-- First tile of a batch: the value scratch ends at the value projection of the batch block. -/
theorem sout_A_1 (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x256x1 .f32) (harg6 : arg6.IsWhole) (arg7 : Memref sig .tc .vmem S1x256x1024 .f32) (harg7 : arg7.IsWhole) (arg8 : Memref sig .tc .vmem S2048x1024 .f32) (harg8 : arg8.IsWhole) (arg9 : Memref sig .tc .vmem S2048x1024 .bf16) (harg9 : arg9.IsWhole) (hc0 : cond0_0 i)
    (x0 : Vec F S1x2048x1024 .f32) (x1 : Vec F S1024x1024 .f32) (x2 : Vec F S1024x1024 .f32) (x3 : Vec F S1024x1024 .f32) (x4 : Vec F S1x256x1 .f32) :
    sout0_A_1 c i arg2 harg2 arg3 harg3 arg4 harg4 arg5 harg5 arg6 harg6 arg7 harg7 arg8 harg8 arg9 harg9 hc0 x0 x1 x2 x3 x4 = k0_pay3 x0 x3 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg2.read_unread, harg5.read_unread, View.ld_unit_zero (S := S1x2048x1024) hz3, View.ld_unit_zero (S := S1024x1024) hz2]

/-- First tile of a batch: the output block is the tile's attention against the projections just stored. -/
theorem out_A_5 (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x256x1 .f32) (harg6 : arg6.IsWhole) (arg7 : Memref sig .tc .vmem S1x256x1024 .f32) (harg7 : arg7.IsWhole) (arg8 : Memref sig .tc .vmem S2048x1024 .f32) (harg8 : arg8.IsWhole) (arg9 : Memref sig .tc .vmem S2048x1024 .bf16) (harg9 : arg9.IsWhole) (hc0 : cond0_0 i)
    (x0 : Vec F S1x2048x1024 .f32) (x1 : Vec F S1024x1024 .f32) (x2 : Vec F S1024x1024 .f32) (x3 : Vec F S1024x1024 .f32) (x4 : Vec F S1x256x1 .f32) :
    out0_A_5 c i arg2 harg2 arg3 harg3 arg4 harg4 arg5 harg5 arg6 harg6 arg7 harg7 arg8 harg8 arg9 harg9 hc0 x0 x1 x2 x3 x4 = k0_pay4 (qrows i x0) x1 (k0_pay2 x0 x2) x4 (k0_pay3 x0 x3) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz3]
  rw [View.readCov_unit_zero (S := S2048x1024) _ hz2, View.readCov_unit_zero (S := S2048x1024) _ hz2]
  simp only [View.readAt_eq_ld, harg2.read_unread, harg3.read_unread, harg4.read_unread, harg5.read_unread, harg6.read_unread, View.ld_unit_zero (S := S1x2048x1024) hz3, View.ld_unit_zero (S := S1024x1024) hz2, View.ld_unit_zero (S := S1x256x1) hz3]
  rfl

/-- Any other tile: the output block is the tile's attention against what the scratch buffers held. -/
theorem out_B_5 (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x256x1 .f32) (harg6 : arg6.IsWhole) (arg7 : Memref sig .tc .vmem S1x256x1024 .f32) (harg7 : arg7.IsWhole) (arg8 : Memref sig .tc .vmem S2048x1024 .f32) (harg8 : arg8.IsWhole) (arg9 : Memref sig .tc .vmem S2048x1024 .bf16) (harg9 : arg9.IsWhole) (hc0 : ¬cond0_0 i)
    (x0 : Vec F S1x2048x1024 .f32) (x1 : Vec F S1024x1024 .f32) (x2 : Vec F S1024x1024 .f32) (x3 : Vec F S1024x1024 .f32) (x4 : Vec F S1x256x1 .f32) (xs0 : Vec F S2048x1024 .f32) (xs1 : Vec F S2048x1024 .bf16) :
    out0_B_5 c i arg2 harg2 arg3 harg3 arg4 harg4 arg5 harg5 arg6 harg6 arg7 harg7 arg8 harg8 arg9 harg9 hc0 x0 x1 x2 x3 x4 xs0 xs1 = k0_pay4 (qrows i x0) x1 xs0 x4 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero hz3]
  simp only [View.readAt_eq_ld, harg2.read_unread, harg3.read_unread, harg6.read_unread, harg8.read_unread, harg9.read_unread, View.ld_unit_zero (S := S1024x1024) hz2, View.ld_unit_zero (S := S1x256x1) hz3, View.ld_unit_zero (S := S2048x1024) hz2]
  rfl

end Cert.KernelIdeal.Pieces

end
-- ==== Proof.AttnRow.lean ====
/-
  Softmax attention of one query row, on the extended reals.

  A query row `q` (a vector over the model dimension), keys `K` and values `V` (one row per key position),
  and an additive row offset `μ`: the score of key `z` is `(Σ_j q_j · K_{z,j}) · c + μ` with `c` the scale
  1/32 (as its binary word), the row's weights are `exp (score − max score) / Σ exp (score − max score)`,
  and the result at column `j` is the weighted sum of the values' column `j`.
  The maximum is the fold of `max` from −∞ over all keys; every sum is over all of its index type, so the
  order in which a program accumulates them does not enter.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The score of key `z` against the query row. -/
def score (q : Fin 1024 → EReal) (K : Fin 2048 → Fin 1024 → EReal) (μ : EReal) (z : Fin 2048) : EReal :=
  (∑ j : Fin 1024, q j * K z j) * Ideal.ofBits .f32 0x3D000000#32 + μ

/-- The largest score of the row (from −∞). -/
def rowMax (q : Fin 1024 → EReal) (K : Fin 2048 → Fin 1024 → EReal) (μ : EReal) : EReal :=
  (Finset.univ : Finset (Fin 2048)).fold max (Ideal.ofBits .f32 0xFF800000#32) (fun z => score q K μ z)

/-- The exponential of a score's distance below the row maximum. -/
def expo (q : Fin 1024 → EReal) (K : Fin 2048 → Fin 1024 → EReal) (μ : EReal) (z : Fin 2048) : EReal :=
  Ideal.exp (score q K μ z - rowMax q K μ)

/-- The row's normaliser. -/
def denom (q : Fin 1024 → EReal) (K : Fin 2048 → Fin 1024 → EReal) (μ : EReal) : EReal :=
  ∑ z : Fin 2048, expo q K μ z

/-- The attention output of the row at column `j`. -/
def attnRow (q : Fin 1024 → EReal) (K V : Fin 2048 → Fin 1024 → EReal) (μ : EReal) (j : Fin 1024) : EReal :=
  ∑ z : Fin 2048, Ideal.div (expo q K μ z) (denom q K μ) * V z j

/-- A row of a stack of matrices projected by a weight matrix: `Σ_i x_{b,s,i} · W_{i,j}`. -/
def proj (X : (⟨3, ![4, 2048, 1024]⟩ : Shape).Idx → EReal) (W : (⟨2, ![1024, 1024]⟩ : Shape).Idx → EReal)
    (b : Fin 4) (s : Fin 2048) (j : Fin 1024) : EReal :=
  ∑ i : Fin 1024, X (ix3 b s i) * W (ix2 i j)

/-- Single-head attention of the whole input: query, key and value projections of `X`, the offset `M b s`
    added to every score of query row `(b, s)`. -/
def attention (X : (⟨3, ![4, 2048, 1024]⟩ : Shape).Idx → EReal) (Wq Wk Wv : (⟨2, ![1024, 1024]⟩ : Shape).Idx → EReal)
    (M : Fin 4 → Fin 2048 → EReal) (b : Fin 4) (s : Fin 2048) (j : Fin 1024) : EReal :=
  attnRow (proj X Wq b s) (proj X Wk b) (proj X Wv b) (M b s) j

/-- The additive mask of a query row from its mask bit: zero where the bit is set, −10⁹ (as its binary word) where
    it is not. -/
def maskAdd (bit : BitVec 1) : EReal :=
  Scalar.select bit (Ideal.ofBits .f32 0x00000000#32) (Ideal.ofBits .f32 0xCE6E6B28#32)

/-- The same offset written as a product: the negated bit read as a number (0 or 1) times −10⁹. -/
theorem not_mul_eq_maskAdd (bit : BitVec 1) :
    (((~~~bit).toNat : ℝ) : EReal) * Ideal.ofBits .f32 0xCE6E6B28#32 = maskAdd bit := by
  unfold maskAdd
  by_cases h : bit = 1#1
  · subst h
    rw [select_one, Ideal.ofBits_zero_f32]
    have : (~~~(1#1 : BitVec 1)).toNat = 0 := by decide
    rw [this]
    simp
  · obtain rfl := eq_zero_of_ne_one h
    rw [select_zero]
    have : (~~~(0#1 : BitVec 1)).toNat = 1 := by decide
    rw [this]
    simp

end Cert.Attn

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibTransposedDot.lean ====
/-
  A matrix product against a transposed right operand, read at an index.

  For the dimension numbers of an `M×K` by `N×K` product (`DotDims.transposedRhs`: both operands contracted on
  their second axis, no batch axis), the sum over the contraction index of the operands' products at result index
  `(i, j)` is `Σ_k l[i,k]·r[j,k]` over `k : Fin K` — a row of the left operand against a row of the right one.
  Stated for the sum itself, and for a kernel's matrix product into a zero accumulator and a host's `dot_general`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of such a product has one axis. -/
theorem transposedRhs_contr_rank (M K N : Nat) : (DotDims.transposedRhs M K N).contr.rank = 1 := rfl

/-- The left operand's index at result `(i, j)` and contraction position `k` is `(i, k)`. -/
theorem transposedRhs_lhsIdx (M K N : Nat) (i : Fin M) (j : Fin N) (k : Fin K) :
    (DotDims.transposedRhs M K N).lhsIdx (ix2 i j) ((contrEquiv1 (DotDims.transposedRhs M K N) K rfl rfl).symm k) = ix2 i k := by
  funext a
  refine Fin.ext ?_
  match a with
  | ⟨0, _⟩ => rfl
  | ⟨1, _⟩ =>
    show (((contrEquiv1 (DotDims.transposedRhs M K N) K rfl rfl).symm k) ⟨0, (Nat.one_pos : 0 < 1)⟩ : ℕ) = k.val
    exact contrEquiv1_symm_val (DotDims.transposedRhs M K N) K rfl rfl k

/-- The right operand's index at result `(i, j)` and contraction position `k` is `(j, k)`. -/
theorem transposedRhs_rhsIdx (M K N : Nat) (i : Fin M) (j : Fin N) (k : Fin K) :
    (DotDims.transposedRhs M K N).rhsIdx (ix2 i j) ((contrEquiv1 (DotDims.transposedRhs M K N) K rfl rfl).symm k) = ix2 j k := by
  funext a
  refine Fin.ext ?_
  match a with
  | ⟨0, _⟩ => rfl
  | ⟨1, _⟩ =>
    show (((contrEquiv1 (DotDims.transposedRhs M K N) K rfl rfl).symm k) ⟨0, (Nat.one_pos : 0 < 1)⟩ : ℕ) = k.val
    exact contrEquiv1_symm_val (DotDims.transposedRhs M K N) K rfl rfl k

/-- THE PRODUCT'S SUM at `(i, j)`: over `k : Fin K`, of `l[i,k]·r[j,k]`. -/
theorem transposedRhs_sum (M K N : Nat) (l : (⟨2, ![M, K]⟩ : Shape).Idx → EReal) (r : (⟨2, ![N, K]⟩ : Shape).Idx → EReal)
    (i : Fin M) (j : Fin N) :
    (∑ q : (DotDims.transposedRhs M K N).contr.Idx,
        l ((DotDims.transposedRhs M K N).lhsIdx (ix2 i j) q) * r ((DotDims.transposedRhs M K N).rhsIdx (ix2 i j) q))
      = ∑ k : Fin K, l (ix2 i k) * r (ix2 j k) := by
  rw [← Equiv.sum_comp (contrEquiv1 (DotDims.transposedRhs M K N) K rfl rfl).symm]
  exact Finset.sum_congr rfl fun k _ => by rw [transposedRhs_lhsIdx, transposedRhs_rhsIdx]

/-- A kernel's matrix product with these dimension numbers into the zero splat, at the ideal values, read at `(i, j)`. -/
theorem transposedRhs_matmul_zero_apply (M K N : Nat) {φ₁ φ₂ : FTy} (prec : Option ContractPrecision)
    (l : FVec Ideal ⟨2, ![M, K]⟩ φ₁) (r : FVec Ideal ⟨2, ![N, K]⟩ φ₂) (i : Fin M) (j : Fin N) :
    matmul (DotDims.transposedRhs M K N) prec l r (constant ⟨2, ![M, N]⟩ .f32 0x00000000#32) (ix2 i j)
      = ∑ k : Fin K, l (ix2 i k) * r (ix2 j k) :=
  (Ideal.matmul_constant_zero_apply (DotDims.transposedRhs M K N) prec l r (ix2 i j)).trans (transposedRhs_sum M K N l r i j)

/-- A host `dot_general` with these dimension numbers, at the ideal values, read at `(i, j)`. -/
theorem transposedRhs_dotGeneral_apply (M K N : Nat) {φ₁ φ₂ : FTy} (prec : Option ContractPrecision)
    (l : FVec Ideal ⟨2, ![M, K]⟩ φ₁) (r : FVec Ideal ⟨2, ![N, K]⟩ φ₂) (i : Fin M) (j : Fin N) :
    Host.dotGeneral (DotDims.transposedRhs M K N) prec l r (ix2 i j) = ∑ k : Fin K, l (ix2 i k) * r (ix2 j k) :=
  (Ideal.dotGeneral_apply (DotDims.transposedRhs M K N) prec _ l r (ix2 i j)).trans (transposedRhs_sum M K N l r i j)

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.LibRowsFlatten.lean ====
/-
  Rows flattened and unflattened. An [a, b, c] array cast to [N, c] with N = a · b keeps the row-major order, so
  row R = i · b + j of the flat array is row (i, j) of the cube, entry by entry; and the cast back reads the flat
  array at that row.
-/
import Idealize.ShloMosaic.Lib.Pipeline.Value
import Idealize.ShloMosaic.Lib.ValueIdx

namespace Cert.LibRowsFlatten

open Idealize.ShloMosaic Idealize.ShloMosaic.ValueIdx

variable {α : Type}

/-- An `[a, b, c]` array cast to `[N, c]` reads, at `(R, k)` with `R = i · b + j`, the operand at `(i, j, k)`. -/
theorem shapeCast_flatten_apply {a b c N : ℕ} (x : (⟨3, ![a, b, c]⟩ : Shape).Idx → α)
    (h : (⟨3, ![a, b, c]⟩ : Shape).ShapeCasts ⟨2, ![N, c]⟩) (i : Fin a) (j : Fin b) (k : Fin c) (R : Fin N)
    (hR : R.val = i.val * b + j.val) :
    shapeCast ⟨2, ![N, c]⟩ x h (ix2 R k) = x (ix3 i j k) :=
  shapeCast_apply x h _ _ (by
    rw [Shape.rowMajor_val_three, Shape.rowMajor_val_two]
    show (i.val * b + j.val) * c + k.val = R.val * c + k.val
    rw [hR])

/-- An `[N, c]` array cast to `[a, b, c]` reads, at `(i, j, k)`, the operand at `(R, k)` with `R = i · b + j`. -/
theorem shapeCast_unflatten_apply {a b c N : ℕ} (y : (⟨2, ![N, c]⟩ : Shape).Idx → α)
    (h : (⟨2, ![N, c]⟩ : Shape).ShapeCasts ⟨3, ![a, b, c]⟩) (i : Fin a) (j : Fin b) (k : Fin c) (R : Fin N)
    (hR : R.val = i.val * b + j.val) :
    shapeCast ⟨3, ![a, b, c]⟩ y h (ix3 i j k) = y (ix2 R k) :=
  shapeCast_apply y h _ _ (by
    rw [Shape.rowMajor_val_three, Shape.rowMajor_val_two]
    show R.val * c + k.val = (i.val * b + j.val) * c + k.val
    rw [hR])

end Cert.LibRowsFlatten
-- ==== Proof.TileValue.lean ====
/-
  The kernel body's three stored values, read at an index, at the ideal values.

  * The key scratch: row `z`, column `j` is `Σ_i x[0,z,i] · Wk[i,j]` of the batch block.
  * The value scratch: the same against `Wv` (the narrowings to 16 bits are the identity on the extended reals).
  * The output block: row `r` is the softmax attention (AttnRow) of the query row `Σ_i xq[0,r,i] · Wq[i,·]`
    against the key scratch's rows and the value scratch's rows, with the mask column's entry `r` added to
    every score of the row.
-/
import proofs.«132776_j59605556134004_2_alg».proof.Proof.Gen.KernelIdeal.Skeleton
import proofs.«132776_j59605556134004_2_alg».proof.Proof.AttnRow
import proofs.«132776_j59605556134004_2_alg».proof.Proof.LibPlainDot
import proofs.«132776_j59605556134004_2_alg».proof.Proof.LibTransposedDot
import proofs.«132776_j59605556134004_2_alg».proof.Proof.LibKeepdims
import proofs.«132776_j59605556134004_2_alg».proof.Proof.LibRowReduce
import proofs.«132776_j59605556134004_2_alg».proof.Proof.LibRowsFlatten
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Tile

open Cert.KernelIdeal Cert.KernelIdeal.Gen Idealize.ShloMosaic Idealize.ShloMosaic.ValueIdx Cert.Lib Cert.Attn

/-- The batch block viewed as a matrix: row `z`, column `i` is the block at `(0, z, i)`. -/
theorem pay1_apply (v32 : FVec Ideal S1x2048x1024 .f32) (z : Fin 2048) (i : Fin 1024) :
    k0_pay1 (F := Ideal) v32 (ix2 z i) = v32 (ix3 0 z i) :=
  Cert.LibRowsFlatten.shapeCast_flatten_apply (a := 1) (b := 2048) (c := 1024) (N := 2048) v32 _ 0 z i z (by simp)

/-- The key scratch's entry `(z, j)`. -/
theorem pay2_apply (v32 : FVec Ideal S1x2048x1024 .f32) (v34 : FVec Ideal S1024x1024 .f32) (z : Fin 2048) (j : Fin 1024) :
    k0_pay2 (F := Ideal) v32 v34 (ix2 z j) = ∑ i : Fin 1024, v32 (ix3 0 z i) * v34 (ix2 i j) := by
  unfold k0_pay2
  rw [shapeCast_self]
  refine (plain_matmul_zero_apply 2048 1024 1024 (some .fp32) (k0_pay1 v32) v34 z j).trans ?_
  exact Finset.sum_congr rfl fun i _ => by rw [pay1_apply]

/-- The value scratch's entry `(z, j)`. -/
theorem pay3_apply (v32 : FVec Ideal S1x2048x1024 .f32) (v40 : FVec Ideal S1024x1024 .f32) (z : Fin 2048) (j : Fin 1024) :
    k0_pay3 (F := Ideal) v32 v40 (ix2 z j) = ∑ i : Fin 1024, v32 (ix3 0 z i) * v40 (ix2 i j) := by
  unfold k0_pay3
  rw [shapeCast_self]
  show matmul _ none (truncf .bf16 (k0_pay1 v32) _) (truncf .bf16 v40 _) _ (ix2 z j) = _
  refine (plain_matmul_zero_apply 2048 1024 1024 none (truncf .bf16 (k0_pay1 v32) bitsLt_bf16_f32) (truncf .bf16 v40 bitsLt_bf16_f32) z j).trans ?_
  exact Finset.sum_congr rfl fun i _ => by rw [truncf_apply, truncf_apply, pay1_apply]

/-- The key scratch's entry, when the loaded batch block holds batch `b` of `A0` and the loaded weights are `A2`. -/
theorem keyproj_of (x0 : FVec Ideal S1x2048x1024 .f32) (x2 : FVec Ideal S1024x1024 .f32)
    (A0 : FVec Ideal S4x2048x1024 .f32) (A2 : FVec Ideal S1024x1024 .f32) (b : Fin 4)
    (h0 : ∀ z i, x0 (ix3 0 z i) = A0 (ix3 b z i)) (h2 : ∀ i j, x2 (ix2 i j) = A2 (ix2 i j)) (z : Fin 2048) (j : Fin 1024) :
    k0_pay2 (F := Ideal) x0 x2 (ix2 z j) = proj A0 A2 b z j := by
  rw [pay2_apply]
  exact Finset.sum_congr rfl fun i _ => by rw [h0, h2]

/-- The value scratch's entry, likewise. -/
theorem valproj_of (x0 : FVec Ideal S1x2048x1024 .f32) (x3 : FVec Ideal S1024x1024 .f32)
    (A0 : FVec Ideal S4x2048x1024 .f32) (A3 : FVec Ideal S1024x1024 .f32) (b : Fin 4)
    (h0 : ∀ z i, x0 (ix3 0 z i) = A0 (ix3 b z i)) (h3 : ∀ i j, x3 (ix2 i j) = A3 (ix2 i j)) (z : Fin 2048) (j : Fin 1024) :
    k0_pay3 (F := Ideal) x0 x3 (ix2 z j) = proj A0 A3 b z j := by
  rw [pay3_apply]
  exact Finset.sum_congr rfl fun i _ => by rw [h0, h3]

/-! ## The output block -/

/-- The score matrix as the body computes it from the query projection, the key scratch and the mask column. -/
def scoresV (v8 : FVec Ideal S256x1024 .f32) (v9 : FVec Ideal S2048x1024 .f32) (v13 : FVec Ideal S1x256x1 .f32) : FVec Ideal S256x2048 .f32 :=
  addf (mulf (matmul dot_S256x1024_S2048x1024_S256x2048_1_1_0_0_n_n (some .fp32) v8 v9 (constant S256x2048 .f32 0x00000000#32))
      (broadcast S256x2048 (Scalar.ofBits (F := Ideal) .f32 0x3D000000#32)))
    (broadcastTo S256x2048 (shapeCast S256x1 v13 shapeCasts_S1x256x1_S256x1) broadcasts_S256x1_S256x2048)

/-- The exponentials of a score matrix's distances below its row maxima. -/
def exposV (v16 : FVec Ideal S256x2048 .f32) : FVec Ideal S256x2048 .f32 :=
  exp (subf v16 (broadcastTo S256x2048 (shapeCast S256x1 (multiReduction (F := Ideal) .maximumf [1] S256 v16 0xFF800000#32 reduces_S256x2048_S256 (.inl rfl) rfl) shapeCasts_S256_S256x1) broadcasts_S256x1_S256x2048))

/-- The row-normalised weights of a matrix of exponentials. -/
def weightsV (v21 : FVec Ideal S256x2048 .f32) : FVec Ideal S256x2048 .f32 :=
  divf v21 (broadcastTo S256x2048 (shapeCast S256x1 (multiReduction (F := Ideal) .add [1] S256 v21 0x00000000#32 reduces_S256x2048_S256 (.inl rfl) rfl) shapeCasts_S256_S256x1) broadcasts_S256x1_S256x2048)

/-- The body's output payload is these stages composed. -/
theorem pay4_eq (v5 : FVec Ideal S1x256x1024 .f32) (v7 : FVec Ideal S1024x1024 .f32) (v9 : FVec Ideal S2048x1024 .f32)
    (v13 : FVec Ideal S1x256x1 .f32) (v27 : FVec Ideal S2048x1024 .bf16) :
    k0_pay4 (F := Ideal) v5 v7 v9 v13 v27
      = shapeCast S1x256x1024
          (matmul dot_S256x2048_S2048x1024_S256x1024_1_0_0_1_n_n none
            (truncf .bf16 (weightsV (exposV (scoresV
              (matmul dot_S256x1024_S1024x1024_S256x1024_1_0_0_1_n_n (some .fp32) (shapeCast S256x1024 v5 shapeCasts_S1x256x1024_S256x1024) v7 (constant S256x1024 .f32 0x00000000#32))
              v9 v13))) bitsLt_bf16_f32)
            v27 (constant S256x1024 .f32 0x00000000#32))
          shapeCasts_S256x1024_S1x256x1024 := rfl

/-- The query projection's entry `(r, j)`. -/
theorem qproj_apply (v5 : FVec Ideal S1x256x1024 .f32) (v7 : FVec Ideal S1024x1024 .f32) (r : Fin 256) (j : Fin 1024) :
    matmul dot_S256x1024_S1024x1024_S256x1024_1_0_0_1_n_n (some .fp32) (shapeCast S256x1024 v5 shapeCasts_S1x256x1024_S256x1024) v7 (constant S256x1024 .f32 0x00000000#32) (ix2 r j)
      = ∑ i : Fin 1024, v5 (ix3 0 r i) * v7 (ix2 i j) := by
  refine (plain_matmul_zero_apply 256 1024 1024 (some .fp32) (shapeCast S256x1024 v5 shapeCasts_S1x256x1024_S256x1024) v7 r j).trans ?_
  exact Finset.sum_congr rfl fun i _ => by
    rw [Cert.LibRowsFlatten.shapeCast_flatten_apply (a := 1) (b := 256) (c := 1024) (N := 256) v5 _ 0 r i r (by simp)]

/-- The score of key `z` in row `r`. -/
theorem scoresV_apply (v8 : FVec Ideal S256x1024 .f32) (v9 : FVec Ideal S2048x1024 .f32) (v13 : FVec Ideal S1x256x1 .f32)
    (r : Fin 256) (z : Fin 2048) :
    scoresV v8 v9 v13 (ix2 r z) = score (fun j => v8 (ix2 r j)) (fun z j => v9 (ix2 z j)) (v13 (ix3 0 r 0)) z := by
  unfold scoresV score
  rw [addf_apply, mulf_apply, broadcast_apply]
  rw [broadcastTo_a1_ab_apply (a := 256) (b := 2048) _ broadcasts_S256x1_S256x2048 r z]
  rw [Cert.LibRowsFlatten.shapeCast_flatten_apply (a := 1) (b := 256) (c := 1) (N := 256) v13 _ 0 r 0 r (by simp)]
  have hm : matmul dot_S256x1024_S2048x1024_S256x2048_1_1_0_0_n_n (some .fp32) v8 v9 (constant S256x2048 .f32 0x00000000#32) (ix2 r z)
      = ∑ k : Fin 1024, v8 (ix2 r k) * v9 (ix2 z k) :=
    transposedRhs_matmul_zero_apply 256 1024 2048 (some .fp32) v8 v9 r z
  rw [hm]
  rfl

/-- The exponential at `(r, z)`, for a score matrix whose row `r` is `sc`. -/
theorem exposV_apply (v16 : FVec Ideal S256x2048 .f32) (r : Fin 256) (sc : Fin 2048 → EReal) (h : ∀ z, v16 (ix2 r z) = sc z) (z : Fin 2048) :
    exposV v16 (ix2 r z)
      = Ideal.exp (sc z - (Finset.univ : Finset (Fin 2048)).fold max (Ideal.ofBits .f32 0xFF800000#32) sc) := by
  unfold exposV
  show Ideal.exp (v16 (ix2 r z) - broadcastTo S256x2048 _ broadcasts_S256x1_S256x2048 (ix2 r z)) = _
  rw [broadcastTo_a1_ab_apply (a := 256) (b := 2048) _ broadcasts_S256x1_S256x2048 r z]
  rw [shapeCast_a_a1_apply (a := 256) _ shapeCasts_S256_S256x1 r 0]
  rw [multiReduction_max_row (a := 256) (b := 2048) v16 0xFF800000#32 reduces_S256x2048_S256 (.inl rfl) rfl r]
  rw [h z, show (fun k => v16 (ix2 r k)) = sc from funext h]

/-- The weight at `(r, z)`, for a matrix of exponentials whose row `r` is `ex`. -/
theorem weightsV_apply (v21 : FVec Ideal S256x2048 .f32) (r : Fin 256) (ex : Fin 2048 → EReal) (h : ∀ z, v21 (ix2 r z) = ex z) (z : Fin 2048) :
    weightsV v21 (ix2 r z) = Ideal.div (ex z) (∑ z' : Fin 2048, ex z') := by
  unfold weightsV
  rw [divf_apply]
  rw [broadcastTo_a1_ab_apply (a := 256) (b := 2048) _ broadcasts_S256x1_S256x2048 r z]
  rw [shapeCast_a_a1_apply (a := 256) _ shapeCasts_S256_S256x1 r 0]
  rw [multiReduction_add_row (a := 256) (b := 2048) v21 0x00000000#32 reduces_S256x2048_S256 (.inl rfl) rfl r]
  rw [h z, Finset.sum_congr rfl fun z' _ => h z']

/-- THE OUTPUT BLOCK at `(0, r, j)`: the attention of query row `r` against the scratch contents. -/
theorem pay4_apply (v5 : FVec Ideal S1x256x1024 .f32) (v7 : FVec Ideal S1024x1024 .f32) (v9 : FVec Ideal S2048x1024 .f32)
    (v13 : FVec Ideal S1x256x1 .f32) (v27 : FVec Ideal S2048x1024 .bf16) (r : Fin 256) (j : Fin 1024) :
    k0_pay4 (F := Ideal) v5 v7 v9 v13 v27 (ix3 0 r j)
      = attnRow (fun j' => ∑ i : Fin 1024, v5 (ix3 0 r i) * v7 (ix2 i j')) (fun z j' => v9 (ix2 z j')) (fun z j' => v27 (ix2 z j'))
          (v13 (ix3 0 r 0)) j := by
  rw [pay4_eq]
  rw [Cert.LibRowsFlatten.shapeCast_unflatten_apply (a := 1) (b := 256) (c := 1024) (N := 256) _ shapeCasts_S256x1024_S1x256x1024 0 r j r (by simp)]
  refine (plain_matmul_zero_apply 256 2048 1024 none _ v27 r j).trans ?_
  unfold attnRow
  refine Finset.sum_congr rfl fun z _ => ?_
  rw [truncf_apply]
  have hsc : ∀ z', scoresV (matmul dot_S256x1024_S1024x1024_S256x1024_1_0_0_1_n_n (some .fp32) (shapeCast S256x1024 v5 shapeCasts_S1x256x1024_S256x1024) v7 (constant S256x1024 .f32 0x00000000#32)) v9 v13 (ix2 r z')
      = score (fun j' => ∑ i : Fin 1024, v5 (ix3 0 r i) * v7 (ix2 i j')) (fun z j' => v9 (ix2 z j')) (v13 (ix3 0 r 0)) z' := fun z' => by
    rw [scoresV_apply]
    congr 1
    funext j'
    exact qproj_apply v5 v7 r j'
  rw [weightsV_apply _ r _ (fun z' => exposV_apply _ r _ hsc z') z]
  rfl

/-! ## A tile of the whole attention -/

/-- Query row `r` of tile `qi`, as a row of the sequence. -/
abbrev tileRow (qi : Fin 8) (r : Fin 256) : Fin 2048 := ⟨256 * qi.val + r.val, by have := qi.isLt; have := r.isLt; omega⟩

/-- When the body's loads hold the query tile's rows of batch `b` of `A0`, the query weights, the key and value
    projections of batch `b` and the tile's entries of the mask column, row `r` of its output block is row
    `256 · qi + r` of the attention of the whole arrays. -/
theorem tile_attention (A0 : FVec Ideal S4x2048x1024 .f32) (A1 A2 A3 : FVec Ideal S1024x1024 .f32) (A4 : FVec Ideal S4x2048x1 .f32)
    (b : Fin 4) (qi : Fin 8)
    (xq : FVec Ideal S1x256x1024 .f32) (x1 : FVec Ideal S1024x1024 .f32) (Ks : FVec Ideal S2048x1024 .f32)
    (x4 : FVec Ideal S1x256x1 .f32) (Vs : FVec Ideal S2048x1024 .bf16)
    (hq : ∀ r i, xq (ix3 0 r i) = A0 (ix3 b (tileRow qi r) i))
    (h1 : ∀ i j, x1 (ix2 i j) = A1 (ix2 i j))
    (hK : ∀ z j, Ks (ix2 z j) = proj A0 A2 b z j)
    (h4 : ∀ r, x4 (ix3 0 r 0) = A4 (ix3 b (tileRow qi r) 0))
    (hV : ∀ z j, Vs (ix2 z j) = proj A0 A3 b z j) (r : Fin 256) (j : Fin 1024) :
    k0_pay4 (F := Ideal) xq x1 Ks x4 Vs (ix3 0 r j)
      = attention A0 A1 A2 A3 (fun b s => A4 (ix3 b s 0)) b (tileRow qi r) j := by
  rw [pay4_apply]
  unfold attention
  have e1 : (fun j' => ∑ i : Fin 1024, xq (ix3 0 r i) * x1 (ix2 i j')) = proj A0 A1 b (tileRow qi r) :=
    funext fun j' => Finset.sum_congr rfl fun i _ => by rw [hq, h1]
  have e2 : (fun z j' => Ks (ix2 z j')) = proj A0 A2 b := funext fun z => funext fun j' => hK z j'
  have e3 : (fun z j' => Vs (ix2 z j')) = proj A0 A3 b := funext fun z => funext fun j' => hV z j'
  rw [e1, e2, e3, h4 r]

end Cert.KernelIdeal.Tile

end
-- ==== Proof.Whole.lean ====
/-
  The kernel's result array, as one function of the arrays the launch finds.

  The grid has 32 points: point `t` is query tile `t mod 8` of batch `t div 8`. The batch block, the three weight
  matrices, the tile's mask column and the tile's output block are read through the windows at those indices. By
  induction on the point the two scratch buffers hold, after point `t`, the key and the value projection of batch
  `t div 8`: they are stored at the batch's first tile and left alone at the other seven. So the block point `t`
  writes back is the attention of the whole arrays on rows `256 · (t mod 8) …` of batch `t div 8`, and the 32
  blocks tile the result array.
-/
import proofs.«132776_j59605556134004_2_alg».proof.Proof.Gen.KernelIdeal.Value
import proofs.«132776_j59605556134004_2_alg».proof.Proof.Pieces
import proofs.«132776_j59605556134004_2_alg».proof.Proof.TileValue
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx
open Cert.Attn Cert.KernelIdeal.Tile Cert.KernelIdeal.Pieces

variable (m : (ℓ : Loc nD τ sig) → Buf (Elt Ideal) ℓ) (ρ : Dev nD → PrngReg)

/-- The batch of a grid point. -/
abbrev bOf (t : Fin cfg0.N) : Fin 4 := ⟨t.val / 8, by have := lt_of_lt_of_eq t.isLt (show cfg0.N = 32 from N_0); omega⟩
/-- The query tile of a grid point. -/
abbrev qOf (t : Fin cfg0.N) : Fin 8 := ⟨t.val % 8, Nat.mod_lt _ (by decide)⟩

/-- The windows' block indices at a point, decided over the grid. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0 :=
  (by decide +kernel : ∀ t : Fin grid0.N, _)

/-- The row offset of the query tile inside the batch block, decided over the grid. -/
theorem off_facts : ∀ t : Fin cfg0.N,
    k0_off1 (grid0.coords t) (0 : Fin 3) = 0 ∧ k0_off1 (grid0.coords t) (1 : Fin 3) = 256 * (t.val % 8) ∧ k0_off1 (grid0.coords t) (2 : Fin 3) = 0 :=
  (by decide +kernel : ∀ t : Fin grid0.N, _)

/-! ## The windows' blocks read at an index -/

theorem iblk0_apply (c : Dev nD) (t : Fin cfg0.N) (z : Fin 2048) (i : Fin 1024) :
    (iblk m c 0 t : FVec Ideal S1x2048x1024 .f32) (ix3 0 z i) = (V m c main_arg0 : FVec Ideal S4x2048x1024 .f32) (ix3 (bOf t) z i) := by
  obtain ⟨e0, e1, e2, -⟩ := idx_facts t
  have h : ((cfg0.win 0).blk t).view.emb (ix3 0 z i) = ix3 (bOf t) z i := by
    funext a; apply Fin.ext
    match a with
    | ⟨0, _⟩ => show win0_0.index t (0 : Fin 3) * 1 + 1 * 0 = t.val / 8; omega
    | ⟨1, _⟩ => show win0_0.index t (1 : Fin 3) * 2048 + 1 * z.val = z.val; omega
    | ⟨2, _⟩ => show win0_0.index t (2 : Fin 3) * 1024 + 1 * i.val = i.val; omega
  show V m c main_arg0 (((cfg0.win 0).blk t).view.emb (ix3 0 z i)) = V m c main_arg0 (ix3 (bOf t) z i)
  rw [h]

theorem iblk1_apply (c : Dev nD) (t : Fin cfg0.N) (i j : Fin 1024) :
    (iblk m c 1 t : FVec Ideal S1024x1024 .f32) (ix2 i j) = (V m c main_arg1 : FVec Ideal S1024x1024 .f32) (ix2 i j) := by
  obtain ⟨-, -, -, e0, e1, -⟩ := idx_facts t
  have h : ((cfg0.win 1).blk t).view.emb (ix2 i j) = ix2 i j := by
    funext a; apply Fin.ext
    match a with
    | ⟨0, _⟩ => show win0_1.index t (0 : Fin 2) * 1024 + 1 * i.val = i.val; omega
    | ⟨1, _⟩ => show win0_1.index t (1 : Fin 2) * 1024 + 1 * j.val = j.val; omega
  show V m c main_arg1 (((cfg0.win 1).blk t).view.emb (ix2 i j)) = V m c main_arg1 (ix2 i j)
  rw [h]

theorem iblk2_apply (c : Dev nD) (t : Fin cfg0.N) (i j : Fin 1024) :
    (iblk m c 2 t : FVec Ideal S1024x1024 .f32) (ix2 i j) = (V m c main_arg2 : FVec Ideal S1024x1024 .f32) (ix2 i j) := by
  obtain ⟨-, -, -, -, -, e0, e1, -⟩ := idx_facts t
  have h : ((cfg0.win 2).blk t).view.emb (ix2 i j) = ix2 i j := by
    funext a; apply Fin.ext
    match a with
    | ⟨0, _⟩ => show win0_2.index t (0 : Fin 2) * 1024 + 1 * i.val = i.val; omega
    | ⟨1, _⟩ => show win0_2.index t (1 : Fin 2) * 1024 + 1 * j.val = j.val; omega
  show V m c main_arg2 (((cfg0.win 2).blk t).view.emb (ix2 i j)) = V m c main_arg2 (ix2 i j)
  rw [h]

theorem iblk3_apply (c : Dev nD) (t : Fin cfg0.N) (i j : Fin 1024) :
    (iblk m c 3 t : FVec Ideal S1024x1024 .f32) (ix2 i j) = (V m c main_arg3 : FVec Ideal S1024x1024 .f32) (ix2 i j) := by
  obtain ⟨-, -, -, -, -, -, -, e0, e1, -⟩ := idx_facts t
  have h : ((cfg0.win 3).blk t).view.emb (ix2 i j) = ix2 i j := by
    funext a; apply Fin.ext
    match a with
    | ⟨0, _⟩ => show win0_3.index t (0 : Fin 2) * 1024 + 1 * i.val = i.val; omega
    | ⟨1, _⟩ => show win0_3.index t (1 : Fin 2) * 1024 + 1 * j.val = j.val; omega
  show V m c main_arg3 (((cfg0.win 3).blk t).view.emb (ix2 i j)) = V m c main_arg3 (ix2 i j)
  rw [h]

theorem iblk4_apply (c : Dev nD) (t : Fin cfg0.N) (r : Fin 256) :
    (iblk m c 4 t : FVec Ideal S1x256x1 .f32) (ix3 0 r 0) = (V m c main_v1 : FVec Ideal S4x2048x1 .f32) (ix3 (bOf t) (tileRow (qOf t) r) 0) := by
  obtain ⟨-, -, -, -, -, -, -, -, -, e0, e1, e2, -⟩ := idx_facts t
  have h : ((cfg0.win 4).blk t).view.emb (ix3 0 r 0) = ix3 (bOf t) (tileRow (qOf t) r) 0 := by
    funext a; apply Fin.ext
    match a with
    | ⟨0, _⟩ => show win0_4.index t (0 : Fin 3) * 1 + 1 * 0 = t.val / 8; omega
    | ⟨1, _⟩ => show win0_4.index t (1 : Fin 3) * 256 + 1 * r.val = 256 * (t.val % 8) + r.val; omega
    | ⟨2, _⟩ => show win0_4.index t (2 : Fin 3) * 1 + 1 * 0 = 0; omega
  show V m c main_v1 (((cfg0.win 4).blk t).view.emb (ix3 0 r 0)) = V m c main_v1 (ix3 (bOf t) (tileRow (qOf t) r) 0)
  rw [h]

/-- The query tile's rows of a batch block: rows `256 · tile + r`. -/
theorem qrows_apply (t : Fin cfg0.N) (x0 : FVec Ideal S1x2048x1024 .f32) (r : Fin 256) (i : Fin 1024) :
    qrows (F := Ideal) (grid0.coords t) x0 (ix3 0 r i) = x0 (ix3 0 (tileRow (qOf t) r) i) := by
  obtain ⟨o0, o1, o2⟩ := off_facts t
  show x0 ((Rect.unit (s := S1x2048x1024) (k0_off1 (grid0.coords t)) S1x256x1024.size (k0_off1_inb (grid0.coords t))).idx (ix3 0 r i)) = _
  refine congrArg x0 (funext fun a => Fin.ext ?_)
  match a with
  | ⟨0, _⟩ => show k0_off1 (grid0.coords t) (0 : Fin 3) + 1 * 0 = 0; omega
  | ⟨1, _⟩ => show k0_off1 (grid0.coords t) (1 : Fin 3) + 1 * r.val = 256 * (t.val % 8) + r.val; omega
  | ⟨2, _⟩ => show k0_off1 (grid0.coords t) (2 : Fin 3) + 1 * i.val = i.val; omega

/-! ## The scratch buffers after each point -/

/-- After point `n` the key scratch holds the key projection of the point's batch, and the value scratch the value
    projection: stored at the batch's first tile, carried unchanged over the other seven. -/
theorem scratch_after (c : Dev nD) : ∀ (n : ℕ) (h : n < cfg0.N),
    (∀ (z : Fin 2048) (j : Fin 1024), ((outsAt0 m c n h).2.1 : FVec Ideal S2048x1024 .f32) (ix2 z j)
        = proj (V m c main_arg0) (V m c main_arg2) (bOf ⟨n, h⟩) z j)
    ∧ (∀ (z : Fin 2048) (j : Fin 1024), ((outsAt0 m c n h).2.2 : FVec Ideal S2048x1024 .bf16) (ix2 z j)
        = proj (V m c main_arg0) (V m c main_arg3) (bOf ⟨n, h⟩) z j) := by
  intro n
  induction n with
  | zero =>
    intro h
    have h0 : (⟨0, h⟩ : Fin cfg0.N).val % 8 = 0 := rfl
    rw [outsAt0_A m c ⟨0, h⟩ h0]
    dsimp only
    constructor
    · intro z j
      refine (congrFun (sout_A_0 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)) (ix2 z j)).trans ?_
      exact keyproj_of (iblk m c 0 ⟨0, h⟩) (iblk m c 2 ⟨0, h⟩) (V m c main_arg0) (V m c main_arg2) (bOf ⟨0, h⟩) (iblk0_apply m c ⟨0, h⟩) (iblk2_apply m c ⟨0, h⟩) z j
    · intro z j
      refine (congrFun (sout_A_1 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)) (ix2 z j)).trans ?_
      exact valproj_of (iblk m c 0 ⟨0, h⟩) (iblk m c 3 ⟨0, h⟩) (V m c main_arg0) (V m c main_arg3) (bOf ⟨0, h⟩) (iblk0_apply m c ⟨0, h⟩) (iblk3_apply m c ⟨0, h⟩) z j
  | succ n ih =>
    intro h
    have hN : n + 1 < 32 := lt_of_lt_of_eq h (show cfg0.N = 32 from N_0)
    by_cases h0 : (⟨n + 1, h⟩ : Fin cfg0.N).val % 8 = 0
    · rw [outsAt0_A m c ⟨n + 1, h⟩ h0]
      dsimp only
      constructor
      · intro z j
        refine (congrFun (sout_A_0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)) (ix2 z j)).trans ?_
        exact keyproj_of (iblk m c 0 ⟨n + 1, h⟩) (iblk m c 2 ⟨n + 1, h⟩) (V m c main_arg0) (V m c main_arg2) (bOf ⟨n + 1, h⟩) (iblk0_apply m c ⟨n + 1, h⟩) (iblk2_apply m c ⟨n + 1, h⟩) z j
      · intro z j
        refine (congrFun (sout_A_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)) (ix2 z j)).trans ?_
        exact valproj_of (iblk m c 0 ⟨n + 1, h⟩) (iblk m c 3 ⟨n + 1, h⟩) (V m c main_arg0) (V m c main_arg3) (bOf ⟨n + 1, h⟩) (iblk0_apply m c ⟨n + 1, h⟩) (iblk3_apply m c ⟨n + 1, h⟩) z j
    · rw [outsAt0_B m c ⟨n + 1, h⟩ h0]
      dsimp only
      have hb : bOf ⟨n, Nat.lt_of_succ_lt h⟩ = bOf ⟨n + 1, h⟩ := Fin.ext (by
        show n / 8 = (n + 1) / 8
        have : (n + 1) % 8 ≠ 0 := h0
        omega)
      obtain ⟨ihK, ihV⟩ := ih (Nat.lt_of_succ_lt h)
      constructor
      · intro z j
        show ((outsAt0 m c n _).2.1 : FVec Ideal S2048x1024 .f32) (ix2 z j) = _
        rw [ihK z j, hb]
      · intro z j
        show ((outsAt0 m c n _).2.2 : FVec Ideal S2048x1024 .bf16) (ix2 z j) = _
        rw [ihV z j, hb]

/-! ## What each point writes back -/

/-- The attention of the arrays the launch finds, the mask column's entries as the row offsets. -/
def result (c : Dev nD) : FVec Ideal S4x2048x1024 .f32 := fun i =>
  attention (V m c main_arg0) (V m c main_arg1) (V m c main_arg2) (V m c main_arg3)
    (fun b s => (V m c main_v1 : FVec Ideal S4x2048x1 .f32) (ix3 b s 0)) (i 0) (i 1) (i 2)

/-- After point `t` the output's staging buffer holds rows `256 · (t mod 8) + r` of batch `t div 8` of the result. -/
theorem out_after (c : Dev nD) (t : Fin cfg0.N) (r : Fin 256) (j : Fin 1024) :
    ((outsAt0 m c t.val t.isLt).1 : FVec Ideal S1x256x1024 .f32) (ix3 0 r j)
      = result m c (ix3 (bOf t) (tileRow (qOf t) r) j) := by
  have hq : ∀ (r : Fin 256) (i : Fin 1024), qrows (F := Ideal) (grid0.coords t) (iblk m c 0 t) (ix3 0 r i)
      = (V m c main_arg0 : FVec Ideal S4x2048x1024 .f32) (ix3 (bOf t) (tileRow (qOf t) r) i) := fun r i => by
    rw [qrows_apply]; exact iblk0_apply m c t _ i
  by_cases h0 : t.val % 8 = 0
  · rw [outsAt0_A m c t h0]
    dsimp only
    refine (congrFun (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)) (ix3 0 r j)).trans ?_
    exact tile_attention (V m c main_arg0) (V m c main_arg1) (V m c main_arg2) (V m c main_arg3) (V m c main_v1) (bOf t) (qOf t)
      (qrows (F := Ideal) (grid0.coords t) (iblk m c 0 t)) (iblk m c 1 t) (k0_pay2 (iblk m c 0 t) (iblk m c 2 t)) (iblk m c 4 t) (k0_pay3 (iblk m c 0 t) (iblk m c 3 t))
      hq (iblk1_apply m c t)
      (keyproj_of (iblk m c 0 t) (iblk m c 2 t) (V m c main_arg0) (V m c main_arg2) (bOf t) (iblk0_apply m c t) (iblk2_apply m c t))
      (iblk4_apply m c t)
      (valproj_of (iblk m c 0 t) (iblk m c 3 t) (V m c main_arg0) (V m c main_arg3) (bOf t) (iblk0_apply m c t) (iblk3_apply m c t)) r j
  · rw [outsAt0_B m c t h0]
    dsimp only
    have hlt : t.val - 1 < cfg0.N := Nat.lt_of_le_of_lt (Nat.sub_le _ _) t.isLt
    obtain ⟨ihK, ihV⟩ := scratch_after m c (t.val - 1) hlt
    have hb : bOf ⟨t.val - 1, hlt⟩ = bOf t := Fin.ext (by
      show (t.val - 1) / 8 = t.val / 8
      omega)
    refine (congrFun (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) hlt).2.1 (outsAt0 m c (t.val - 1) hlt).2.2) (ix3 0 r j)).trans ?_
    exact tile_attention (V m c main_arg0) (V m c main_arg1) (V m c main_arg2) (V m c main_arg3) (V m c main_v1) (bOf t) (qOf t)
      (qrows (F := Ideal) (grid0.coords t) (iblk m c 0 t)) (iblk m c 1 t) (outsAt0 m c (t.val - 1) hlt).2.1 (iblk m c 4 t) (outsAt0 m c (t.val - 1) hlt).2.2
      hq (iblk1_apply m c t)
      (fun z j => (ihK z j).trans (by rw [hb]))
      (iblk4_apply m c t)
      (fun z j => (ihV z j).trans (by rw [hb])) r j

/-- An index of the result array is in point `t`'s block iff each coordinate is in the block's range on its axis. -/
theorem mem_blk (t : Fin cfg0.N) (i : S4x2048x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v2).slice (win0_5.rect t)).set ↔ _
  rw [View.set_slice_whole, Rect.mem_set_unit]
  exact Iff.rfl

/-- WHAT POINT `t` WRITES BACK is block `t` of the result. -/
theorem flushed_eq (c : Dev nD) (t : Fin cfg0.N) :
    (dats m 0 c).flushed 5 t = ((cfg0.win 5).blk t).view.read (Elt Ideal) (result m c) := by
  rw [flushed5]
  obtain ⟨-, -, -, -, -, -, -, -, -, -, -, -, e0, e1, e2⟩ := idx_facts t
  refine funext fun (y : S1x256x1024.Idx) => ?_
  obtain ⟨p, r, j, rfl⟩ : ∃ (p : Fin 1) (r : Fin 256) (j : Fin 1024), y = ix3 p r j := ⟨y 0, y 1, y 2, eq_ix3 y⟩
  obtain rfl : p = 0 := Subsingleton.elim _ _
  have h : ((cfg0.win 5).blk t).view.emb (ix3 0 r j) = ix3 (bOf t) (tileRow (qOf t) r) j := by
    funext a; apply Fin.ext
    match a with
    | ⟨0, _⟩ => show win0_5.index t (0 : Fin 3) * 1 + 1 * 0 = t.val / 8; omega
    | ⟨1, _⟩ => show win0_5.index t (1 : Fin 3) * 256 + 1 * r.val = 256 * (t.val % 8) + r.val; omega
    | ⟨2, _⟩ => show win0_5.index t (2 : Fin 3) * 1024 + 1 * j.val = j.val; omega
  show ((outsAt0 m c t.val t.isLt).1 : FVec Ideal S1x256x1024 .f32) (ix3 0 r j) = result m c (((cfg0.win 5).blk t).view.emb (ix3 0 r j))
  rw [h]
  exact out_after m c t r j

/-- The 32 blocks tile the result array: row `s` of batch `b` is in the block of point `8 · b + s div 256`. -/
theorem cover (i : S4x2048x1024.Idx) : ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 1024 := (i 2).isLt
  have hlt : 8 * (i 0).val + (i 1).val / 256 < cfg0.N := by rw [show cfg0.N = 32 from N_0]; omega
  obtain ⟨-, -, -, -, -, -, -, -, -, -, -, -, e0, e1, e2⟩ := idx_facts ⟨8 * (i 0).val + (i 1).val / 256, hlt⟩
  refine ⟨⟨8 * (i 0).val + (i 1).val / 256, hlt⟩, flush0_5 _, (mem_blk _ i).mpr fun a => ?_⟩
  match a with
  | ⟨0, _⟩ =>
    show win0_5.index ⟨8 * (i 0).val + (i 1).val / 256, hlt⟩ (0 : Fin 3) * 1 ≤ (i 0).val ∧ (i 0).val < win0_5.index ⟨8 * (i 0).val + (i 1).val / 256, hlt⟩ (0 : Fin 3) * 1 + 1
    rw [e0]; dsimp only; omega
  | ⟨1, _⟩ =>
    show win0_5.index ⟨8 * (i 0).val + (i 1).val / 256, hlt⟩ (1 : Fin 3) * 256 ≤ (i 1).val ∧ (i 1).val < win0_5.index ⟨8 * (i 0).val + (i 1).val / 256, hlt⟩ (1 : Fin 3) * 256 + 256
    rw [e1]; dsimp only; omega
  | ⟨2, _⟩ =>
    show win0_5.index ⟨8 * (i 0).val + (i 1).val / 256, hlt⟩ (2 : Fin 3) * 1024 ≤ (i 2).val ∧ (i 2).val < win0_5.index ⟨8 * (i 0).val + (i 1).val / 256, hlt⟩ (2 : Fin 3) * 1024 + 1024
    rw [e2]; omega

/-- THE RESULT ARRAY after the run. -/
theorem final (c : Dev nD) : (dats m 0 c).arrAt 5 cfg0.N = result m c :=
  (dats m 0 c).arrAt_eq_of_cover 5 (result m c) (fun t _ => flushed_eq m c t) cover

/-- The kernel's run, read: the result array at the attention of the arrays the launch finds, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.LibTRefCast.lean ====
/-
  A typed reference's two transports cancel.

  A reference that carries the type `T` of the tensor value it holds moves contents at `T` to contents at the buffer's
  own type and back along the equation between the two types. Going there and back is the identity, whatever the
  reference: the equation can be taken to be `rfl`. General in the signature, the value type and the contents.
-/
import Idealize.ShloMosaic.Lib.StableHlo

namespace Cert.Lib

open Idealize.ShloMosaic Idealize.ShloMosaic.StableHlo

/-- Contents moved to the buffer's type and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents moved from the buffer's type and back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Cert.Lib
-- ==== Proof.HostMask.lean ====
/-
  The mask column the kernel is launched on.

  Before the launch the host turns the boolean mask into an additive one: a select between the constants 0 and −10⁹
  by the mask bit, then a trailing unit axis. Read at `(b, s, 0)` the array the launch finds is the additive mask of
  the bit at `(b, s)`.
-/
import proofs.«132776_j59605556134004_2_alg».proof.Proof.Gen.KernelIdeal.Frame
import proofs.«132776_j59605556134004_2_alg».proof.Proof.LibTRefCast
import proofs.«132776_j59605556134004_2_alg».proof.Proof.AttnRow
import Idealize.ShloMosaic.PureOps.Ideal
import Idealize.ShloMosaic.Lib.ValueIdx
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.HostMask

open Cert.KernelIdeal Cert.KernelIdeal.Gen Idealize.ShloMosaic.ValueIdx Cert.Attn

variable (m : (ℓ : Loc nD τ sig) → Buf (Elt Ideal) ℓ)

/-- The array the launch finds in the mask operand, as the host operations' term of the mask argument. -/
theorem V_mask (c : Dev nD) :
    (V m c main_v1 : S4x2048x1.Idx → EReal)
      = broadcastInDim S4x2048x1 ![0, 1] bcast_S4x2048_S4x2048x1_0_1
          (select (m ((c : Thread nD τ).loc main_arg4))
            (broadcastInDim S4x2048 ![] bcast_S_S4x2048 (constant (F := Ideal) S_ .f32 0x00000000#32))
            (broadcastInDim S4x2048 ![] bcast_S_S4x2048 (constant (F := Ideal) S_ .f32 0xCE6E6B28#32))) := by
  dsimp only [Gen.V]
  simp only [Gen.hostOps0, Gen.hostOps0_1, Gen.hostOps0_2, List.flatten_cons, List.flatten_nil, List.append_nil, List.cons_append, List.nil_append]
  after_results
  simp only [Cert.Lib.ofBuf_toBuf]
  rfl

/-- Read at `(b, s, 0)`: the additive mask of the bit at `(b, s)`. -/
theorem V_mask_apply (c : Dev nD) (b : Fin 4) (s : Fin 2048) :
    (V m c main_v1 : S4x2048x1.Idx → EReal) (ix3 b s 0) = maskAdd (m ((c : Thread nD τ).loc main_arg4) (ix2 b s)) := by
  rw [V_mask]
  rw [broadcastInDim_apply ![0, 1] bcast_S4x2048_S4x2048x1_0_1 _ (ix3 b s 0) (ix2 b s) (fun a => match a with
    | ⟨0, _⟩ => by show b.val = if (4 : Nat) = 1 then 0 else b.val; rw [if_neg (by decide)]
    | ⟨1, _⟩ => by show s.val = if (2048 : Nat) = 1 then 0 else s.val; rw [if_neg (by decide)])]
  rw [select_apply]
  rw [broadcastInDim_apply ![] bcast_S_S4x2048 _ (ix2 b s) ix0 (fun a => a.elim0),
    broadcastInDim_apply ![] bcast_S_S4x2048 _ (ix2 b s) ix0 (fun a => a.elim0)]
  rfl

end Cert.KernelIdeal.HostMask

end
-- ==== Proof.RefValue.lean ====
/-
  The reference's result, read at an index, is the attention of its arguments.

  The reference projects the input to queries, keys and values, multiplies queries by keys batch by batch, scales by
  1/32, adds the mask offset — the negated mask bit read as 0 or 1, times −10⁹ —, takes the softmax over the key axis
  (maximum from −∞, exponential of the distance below it, division by the sum) and multiplies by the values. Read at
  `(b, s, j)` every stage is the matching stage of AttnRow's `attention` at query row `(b, s)`: the outer maximum with
  −∞ changes nothing, and the sum's zero starting value adds nothing.
-/
import proofs.«132776_j59605556134004_2_alg».proof.Proof.Gen.ReferenceIdeal.Read
import proofs.«132776_j59605556134004_2_alg».proof.Proof.AttnRow
import proofs.«132776_j59605556134004_2_alg».proof.Proof.LibRowReduce
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn Cert.Lib

variable (x0 : (⟨S4x2048x1024, .f32⟩ : BufTy).Contents (Elt Ideal)) (x1 x2 x3 : (⟨S1024x1024, .f32⟩ : BufTy).Contents (Elt Ideal)) (x4 : (⟨S4x2048, .i1⟩ : BufTy).Contents (Elt Ideal))

/-- The query projection at `(b, s, k)`. -/
theorem v0_apply (b : Fin 4) (s : Fin 2048) (k : Fin 1024) :
    val_main_v0 (F := Ideal) x0 x1 (ix3 b s k) = proj x0 x1 b s k := by
  rw [val_main_v0_apply]
  refine Finset.sum_congr rfl fun i _ => ?_
  have el : lidx_main_v0 (ix3 b s k) i = ix3 b s i := funext fun a => by
    match a with | ⟨0, _⟩ => rfl | ⟨1, _⟩ => rfl | ⟨2, _⟩ => rfl
  have er : ridx_main_v0 (ix3 b s k) i = ix2 i k := funext fun a => by
    match a with | ⟨0, _⟩ => rfl | ⟨1, _⟩ => rfl
  rw [el, er]

/-- The key projection at `(b, z, k)`. -/
theorem v1_apply (b : Fin 4) (z : Fin 2048) (k : Fin 1024) :
    val_main_v1 (F := Ideal) x0 x2 (ix3 b z k) = proj x0 x2 b z k := by
  rw [val_main_v1_apply]
  refine Finset.sum_congr rfl fun i _ => ?_
  have el : lidx_main_v1 (ix3 b z k) i = ix3 b z i := funext fun a => by
    match a with | ⟨0, _⟩ => rfl | ⟨1, _⟩ => rfl | ⟨2, _⟩ => rfl
  have er : ridx_main_v1 (ix3 b z k) i = ix2 i k := funext fun a => by
    match a with | ⟨0, _⟩ => rfl | ⟨1, _⟩ => rfl
  rw [el, er]

/-- The value projection at `(b, z, j)`. -/
theorem v12_apply (b : Fin 4) (z : Fin 2048) (j : Fin 1024) :
    val_main_v12 (F := Ideal) x0 x3 (ix3 b z j) = proj x0 x3 b z j := by
  rw [val_main_v12_apply]
  refine Finset.sum_congr rfl fun i _ => ?_
  have el : lidx_main_v12 (ix3 b z j) i = ix3 b z i := funext fun a => by
    match a with | ⟨0, _⟩ => rfl | ⟨1, _⟩ => rfl | ⟨2, _⟩ => rfl
  have er : ridx_main_v12 (ix3 b z j) i = ix2 i j := funext fun a => by
    match a with | ⟨0, _⟩ => rfl | ⟨1, _⟩ => rfl
  rw [el, er]

/-- The mask offset of query row `(b, s)`. -/
theorem v9_apply (b : Fin 4) (s : Fin 2048) :
    val_main_v9 (F := Ideal) x4 (ix3 b s 0) = maskAdd (x4 (ix2 b s)) := by
  rw [val_main_v9_apply, val_main_v7_apply, val_main_v6_apply, val_main_v5_apply, val_main_v8_apply, val_main_cst_0_apply]
  have e : idx_main_v7 (ix3 b s (0 : Fin 1)) = ix2 b s := funext fun a => by
    match a with | ⟨0, _⟩ => rfl | ⟨1, _⟩ => rfl
  rw [e]
  exact not_mul_eq_maskAdd (x4 (ix2 b s))

/-- The masked, scaled score of key `z` for query row `(b, s)`. -/
theorem v11_apply (b : Fin 4) (s z : Fin 2048) :
    val_main_v11 (F := Ideal) x0 x1 x2 x4 (ix3 b s z)
      = score (proj x0 x1 b s) (proj x0 x2 b) (maskAdd (x4 (ix2 b s))) z := by
  rw [val_main_v11_apply, val_main_v4_apply, val_main_v3_apply, val_main_cst_apply, val_main_v10_apply, val_main_v2_apply]
  have e10 : idx_main_v10 (ix3 b s z) = ix3 b s (0 : Fin 1) := funext fun a => by
    match a with | ⟨0, _⟩ => rfl | ⟨1, _⟩ => rfl | ⟨2, _⟩ => rfl
  rw [e10, v9_apply]
  unfold score
  have es : (∑ k : Fin 1024, val_main_v0 (F := Ideal) x0 x1 (lidx_main_v2 (ix3 b s z) k) * val_main_v1 (F := Ideal) x0 x2 (ridx_main_v2 (ix3 b s z) k))
      = ∑ k : Fin 1024, proj x0 x1 b s k * proj x0 x2 b z k := Finset.sum_congr rfl fun k _ => by
    have el : lidx_main_v2 (ix3 b s z) k = ix3 b s k := funext fun a => by
      match a with | ⟨0, _⟩ => rfl | ⟨1, _⟩ => rfl | ⟨2, _⟩ => rfl
    have er : ridx_main_v2 (ix3 b s z) k = ix3 b z k := funext fun a => by
      match a with | ⟨0, _⟩ => rfl | ⟨1, _⟩ => rfl | ⟨2, _⟩ => rfl
    rw [el, er, v0_apply, v1_apply]
  rw [es]
  rfl

/-- The row maximum the reference subtracts: the outer maximum with −∞ is the row maximum itself. -/
theorem v15_apply (b : Fin 4) (s : Fin 2048) :
    val_main_v15 (F := Ideal) x0 x1 x2 x4 (ix2 b s)
      = rowMax (proj x0 x1 b s) (proj x0 x2 b) (maskAdd (x4 (ix2 b s))) := by
  rw [val_main_v15_apply, val_main_v14_apply, val_main_cst_2_apply]
  unfold val_main_v13
  rw [hostReduce_max_last3 (a := 4) (b := 2048) (c := 2048) (val_main_v11 (F := Ideal) x0 x1 x2 x4) (val_main_cst_1 (F := Ideal))
    reducesTo_S4x2048x2048_S4x2048_d2 (by decide) h_S_ b s]
  rw [val_main_cst_1_apply]
  have e : (fun k : Fin 2048 => val_main_v11 (F := Ideal) x0 x1 x2 x4 (ix3 b s k))
      = fun z => score (proj x0 x1 b s) (proj x0 x2 b) (maskAdd (x4 (ix2 b s))) z := funext fun k => v11_apply x0 x1 x2 x4 b s k
  rw [e]
  show max (Ideal.ofBits .f32 0xFF800000#32) (rowMax _ _ _) = rowMax _ _ _
  refine max_eq_right ?_
  unfold rowMax
  rw [Finset.le_fold_max]
  exact Or.inl le_rfl

/-- The exponential of a score's distance below the row maximum. -/
theorem v19_apply (b : Fin 4) (s z : Fin 2048) :
    val_main_v19 (F := Ideal) x0 x1 x2 x4 (ix3 b s z)
      = expo (proj x0 x1 b s) (proj x0 x2 b) (maskAdd (x4 (ix2 b s))) z := by
  rw [val_main_v19_apply, val_main_v18_apply, val_main_v17_apply, val_main_v16_apply, v11_apply]
  have e17 : idx_main_v17 (ix3 b s z) = ix3 b s (0 : Fin 1) := funext fun a => by
    match a with | ⟨0, _⟩ => rfl | ⟨1, _⟩ => rfl | ⟨2, _⟩ => rfl
  have e16 : idx_main_v16 (ix3 b s (0 : Fin 1)) = ix2 b s := funext fun a => by
    match a with | ⟨0, _⟩ => rfl | ⟨1, _⟩ => rfl
  rw [e17, e16, v15_apply]
  rfl

/-- The row's normaliser: the sum's zero starting value adds nothing. -/
theorem v20_apply (b : Fin 4) (s : Fin 2048) :
    val_main_v20 (F := Ideal) x0 x1 x2 x4 (ix2 b s)
      = denom (proj x0 x1 b s) (proj x0 x2 b) (maskAdd (x4 (ix2 b s))) := by
  rw [val_main_v20_apply, val_main_cst_3_apply]
  show Ideal.ofBits .f32 0x00000000#32 + _ = _
  rw [Ideal.ofBits_zero_f32, zero_add]
  unfold denom
  refine Finset.sum_congr rfl fun k _ => ?_
  have e : idx_main_v20 (ix2 b s) k = ix3 b s k := funext fun a => by
    match a with | ⟨0, _⟩ => rfl | ⟨1, _⟩ => rfl | ⟨2, _⟩ => rfl
  rw [e, v19_apply]

/-- The softmax weight of key `z` for query row `(b, s)`. -/
theorem v23_apply (b : Fin 4) (s z : Fin 2048) :
    val_main_v23 (F := Ideal) x0 x1 x2 x4 (ix3 b s z)
      = Ideal.div (expo (proj x0 x1 b s) (proj x0 x2 b) (maskAdd (x4 (ix2 b s))) z)
          (denom (proj x0 x1 b s) (proj x0 x2 b) (maskAdd (x4 (ix2 b s)))) := by
  rw [val_main_v23_apply, val_main_v22_apply, val_main_v21_apply, v19_apply]
  have e22 : idx_main_v22 (ix3 b s z) = ix3 b s (0 : Fin 1) := funext fun a => by
    match a with | ⟨0, _⟩ => rfl | ⟨1, _⟩ => rfl | ⟨2, _⟩ => rfl
  have e21 : idx_main_v21 (ix3 b s (0 : Fin 1)) = ix2 b s := funext fun a => by
    match a with | ⟨0, _⟩ => rfl | ⟨1, _⟩ => rfl
  rw [e22, e21, v20_apply]
  rfl

/-- THE REFERENCE'S RESULT at `(b, s, j)`: the attention of its arguments. -/
theorem v24_apply (b : Fin 4) (s : Fin 2048) (j : Fin 1024) :
    val_main_v24 (F := Ideal) x0 x1 x2 x3 x4 (ix3 b s j)
      = attention x0 x1 x2 x3 (fun b s => maskAdd (x4 (ix2 b s))) b s j := by
  rw [val_main_v24_apply]
  unfold attention attnRow
  refine Finset.sum_congr rfl fun z _ => ?_
  have el : lidx_main_v24 (ix3 b s j) z = ix3 b s z := funext fun a => by
    match a with | ⟨0, _⟩ => rfl | ⟨1, _⟩ => rfl | ⟨2, _⟩ => rfl
  have er : ridx_main_v24 (ix3 b s j) z = ix3 b z j := funext fun a => by
    match a with | ⟨0, _⟩ => rfl | ⟨1, _⟩ => rfl | ⟨2, _⟩ => rfl
  rw [el, er, v23_apply, v12_apply]

end Cert.ReferenceIdeal.RefValue

end
-- ==== Proof.lean ====
/-
  The kernel — projections, scaled and masked scores, softmax and the weighted sum of values fused in one launch,
  the key and value projections of a batch computed at its first query tile and kept for the other seven — against
  the plain single-head attention of the reference.

  On the extended reals both programs compute, at `(b, s, j)`,
      Σ_z  exp (y_z − max_z' y_z') / (Σ_z' exp (y_z' − max y))  ·  (x_b W_v)_{z,j},
      y_z = (Σ_k (x_b W_q)_{s,k} · (x_b W_k)_{z,k}) / 32 + offset(mask_{b,s}),
  with the same constants: the scale is the word of 1/32 in both, and the offset is 0 for a set mask bit and −10⁹ for
  a clear one, which the kernel's host selects and the reference multiplies out of the negated bit. The two sides
  differ only in how sums are cut and ordered — per tile against per batch, narrowed to 16 bits or not — and on the
  extended reals a sum over a whole index type has no order and a narrowing is the identity. No law that needs
  finiteness is used, so the precondition is never opened.

  The three runs: the kernel's two frames are the generated ones; the reference's frame is its generated run with
  the result dropped. The kernel's value is the generated blockwise run with the result array named, opened by the
  induction over grid points of Whole.lean; the reference's value is its generated run read stage by stage
  (RefValue.lean).
-/
import proofs.«132776_j59605556134004_2_alg».proof.Defs
import proofs.«132776_j59605556134004_2_alg».proof.Proof.Gen.Kernel
import proofs.«132776_j59605556134004_2_alg».proof.Proof.Gen.Kernel.Skeleton
import proofs.«132776_j59605556134004_2_alg».proof.Proof.Gen.Kernel.Launch
import proofs.«132776_j59605556134004_2_alg».proof.Proof.Gen.Kernel.Points
import proofs.«132776_j59605556134004_2_alg».proof.Proof.Gen.Kernel.Frame
import proofs.«132776_j59605556134004_2_alg».proof.Proof.Gen.KernelIdeal
import proofs.«132776_j59605556134004_2_alg».proof.Proof.Gen.KernelIdeal.Skeleton
import proofs.«132776_j59605556134004_2_alg».proof.Proof.Gen.KernelIdeal.Launch
import proofs.«132776_j59605556134004_2_alg».proof.Proof.Gen.KernelIdeal.Points
import proofs.«132776_j59605556134004_2_alg».proof.Proof.Gen.KernelIdeal.Frame
import proofs.«132776_j59605556134004_2_alg».proof.Proof.Gen.ReferenceIdeal
import proofs.«132776_j59605556134004_2_alg».proof.Proof.Gen.Pre_finite_inputs
import proofs.«132776_j59605556134004_2_alg».proof.Proof.Gen.KernelIdeal.Value
import proofs.«132776_j59605556134004_2_alg».proof.Proof.Gen.ReferenceIdeal.Run
import proofs.«132776_j59605556134004_2_alg».proof.Proof.Gen.ReferenceIdeal.Read
import proofs.«132776_j59605556134004_2_alg».proof.Proof.Whole
import proofs.«132776_j59605556134004_2_alg».proof.Proof.HostMask
import proofs.«132776_j59605556134004_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Attn

/-- The kernel's result array, read at `(b, s, j)`, is the attention of the ARGUMENT arrays: the windows' arrays
    are the arguments as launched, and the mask operand's entries are the mask bits' offsets. -/
theorem kernel_result_apply (m : (ℓ : Loc Cert.KernelIdeal.nD Cert.KernelIdeal.τ Cert.KernelIdeal.sig) → Buf (Elt Ideal) ℓ)
    (c : Dev Cert.KernelIdeal.nD) (b : Fin 4) (s : Fin 2048) (j : Fin 1024) :
    Cert.KernelIdeal.Whole.result m c (ix3 b s j)
      = attention (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (fun b s => maskAdd (m ((c.tc : Thread Cert.KernelIdeal.nD Cert.KernelIdeal.τ).loc Cert.KernelIdeal.main_arg4) (ix2 b s))) b s j := by
  show attention (Cert.KernelIdeal.Gen.V m c Cert.KernelIdeal.main_arg0) (Cert.KernelIdeal.Gen.V m c Cert.KernelIdeal.main_arg1)
      (Cert.KernelIdeal.Gen.V m c Cert.KernelIdeal.main_arg2) (Cert.KernelIdeal.Gen.V m c Cert.KernelIdeal.main_arg3)
      (fun b s => (Cert.KernelIdeal.Gen.V m c Cert.KernelIdeal.main_v1 : FVec Ideal Cert.KernelIdeal.S4x2048x1 .f32) (ix3 b s 0)) b s j = _
  rw [Cert.KernelIdeal.Gen.V_main_arg0, Cert.KernelIdeal.Gen.V_main_arg1, Cert.KernelIdeal.Gen.V_main_arg2, Cert.KernelIdeal.Gen.V_main_arg3]
  have e : (fun (b : Fin 4) (s : Fin 2048) => (Cert.KernelIdeal.Gen.V m c Cert.KernelIdeal.main_v1 : FVec Ideal Cert.KernelIdeal.S4x2048x1 .f32) (ix3 b s 0))
      = fun b s => maskAdd (m ((c.tc : Thread Cert.KernelIdeal.nD Cert.KernelIdeal.τ).loc Cert.KernelIdeal.main_arg4) (ix2 b s)) :=
    funext fun b => funext fun s => Cert.KernelIdeal.HostMask.V_mask_apply m c b s
  rw [e]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both runs end with the attention of the arguments in their results. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1, (hagree c).2.2.2.2]
  funext i
  obtain ⟨b, s, j, rfl⟩ : ∃ (b : Fin 4) (s : Fin 2048) (j : Fin 1024), i = ix3 b s j := ⟨i 0, i 1, i 2, eq_ix3 i⟩
  rw [Cert.ReferenceIdeal.RefValue.v24_apply]
  exact (kernel_result_apply m c b s j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
